-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S131072x256 .f32) (main_arg1 : FVec F S256x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S131072x256 : Shape := ⟨2, ![131072, 256]⟩
abbrev S256x256 : Shape := ⟨2, ![256, 256]⟩
abbrev S4096x256 : Shape := ⟨2, ![4096, 256]⟩
abbrev S4096 : Shape := ⟨1, ![4096]⟩
abbrev S4096x1 : Shape := ⟨2, ![4096, 1]⟩
abbrev S256 : Shape := ⟨1, ![256]⟩
abbrev S1x256 : Shape := ⟨2, ![1, 256]⟩

abbrev nBuf : Space → Nat
  | .hbm => 3
  | .vmem => 5
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S131072x256, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S4096x256, .f32⟩
  | .local _ .vmem, ⟨4, _⟩ => ⟨S4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  reduces_S4096x256_S4096 : S4096x256.Reduces [1] S4096
  shapeCasts_S4096_S4096x1 : S4096.ShapeCasts S4096x1
  reduces_S256x256_S256 : S256x256.Reduces [1] S256
  bitsLt_bf16_f32 : FTy.bits .bf16 < FTy.bits .f32
  transposes_S256x256_p1_0_S256x256 : S256x256.Transposes [1, 0] S256x256
  shapeCasts_S256_S1x256 : S256.ShapeCasts S1x256
  broadcasts_S4096x1_S4096x256 : S4096x1.Broadcasts S4096x256
  broadcasts_S1x256_S4096x256 : S1x256.Broadcasts S4096x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S131072x256.size a
  hwx0_2 : ∀ i : grid0.Coords, EltTy.bits .f32 = 32 ∨ (Rect.block (s := S131072x256) S4096x256.size (cc0_transform_2 i) (hinb0_2 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S_ : Shape := ⟨0, ![]⟩
abbrev S131072 : Shape := ⟨1, ![131072]⟩
abbrev S131072x1 : Shape := ⟨2, ![131072, 1]⟩
abbrev S256 : Shape := ⟨1, ![256]⟩
abbrev S1x256 : Shape := ⟨2, ![1, 256]⟩

abbrev nBuf : Space → Nat
  | .hbm => 32
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S131072x256, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S256x256, .f32⟩
  | .hbm, ⟨7, _⟩ => ⟨S_, .f32⟩
  | .hbm, ⟨8, _⟩ => ⟨S256, .f32⟩
  | .hbm, ⟨9, _⟩ => ⟨S131072x256, .f32⟩
  | .hbm, ⟨10, _⟩ => ⟨S1x256, .f32⟩
  | .hbm, ⟨11, _⟩ => ⟨S131072x256, .f32⟩
  | .hbm, ⟨12, _⟩ => ⟨S131072x256, .f32⟩
  | .hbm, ⟨13, _⟩ => ⟨S131072x256, .f32⟩
  | .hbm, ⟨14, _⟩ => ⟨S_, .f32⟩
  | .hbm, ⟨15, _⟩ => ⟨S131072x256, .f32⟩
  | .hbm, ⟨16, _⟩ => ⟨S131072x256, .f32⟩
  | .hbm, ⟨17, _⟩ => ⟨S131072x256, .f32⟩
  | .hbm, ⟨18, _⟩ => ⟨S_, .f32⟩
  | .hbm, ⟨19, _⟩ => ⟨S131072x256, .f32⟩
  | .hbm, ⟨20, _⟩ => ⟨S131072x256, .f32⟩
  | .hbm, ⟨21, _⟩ => ⟨S_, .f32⟩
  | .hbm, ⟨22, _⟩ => ⟨S131072x256, .f32⟩
  | .hbm, ⟨23, _⟩ => ⟨S131072x256, .f32⟩
  | .hbm, ⟨24, _⟩ => ⟨S_, .f32⟩
  | .hbm, ⟨25, _⟩ => ⟨S131072, .f32⟩
  | .hbm, ⟨26, _⟩ => ⟨S131072x1, .f32⟩
  | .hbm, ⟨27, _⟩ => ⟨S_, .f32⟩
  | .hbm, ⟨28, _⟩ => ⟨S131072x1, .f32⟩
  | .hbm, ⟨29, _⟩ => ⟨S131072x1, .f32⟩
  | .hbm, ⟨30, _⟩ => ⟨S131072x256, .f32⟩
  | .hbm, ⟨31, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1_0 : S131072.BroadcastsInDim S131072x1 (![0] : Fin 1 → Fin S131072x1.rank)
  reducesTo_S256x256_S256_d1 : S256x256.ReducesTo [1] S256
  bcast_S256_S1x256_1 : S256.BroadcastsInDim S1x256 (![1] : Fin 1 → Fin S1x256.rank)
  bcast_S131072x1_S131072x256_0_1 : S131072x1.BroadcastsInDim S131072x256 (![0, 1] : Fin 2 → Fin S131072x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  bcast_S_S131072x1 : S_.BroadcastsInDim S131072x1 (![] : Fin 0 → Fin S131072x1.rank)
  dot_S131072x256_S256x256_S131072x256_1_1_0_0_n_n_wf : DotDims.WF S131072x256 S256x256 S131072x256 [1] [1] [0] [0] [] []

variable [Facts₀]

def dot_S131072x256_S256x256_S131072x256_1_1_0_0_n_n : DotDims S131072x256 S256x256 S131072x256 where
  lhsContracting := [1]
  rhsContracting := [1]
  lhsNonContracting := [0]
  rhsNonContracting := [0]
  lhsBatch := []
  rhsBatch := []
  wf := dot_S131072x256_S256x256_S131072x256_1_1_0_0_n_n_wf

class Facts : Prop extends Facts₀ where

variable [Facts]
-- ==== Proof.SoftAssign.lean ====
/-
  The soft cluster assignment of one point, as a function on the extended reals.

  For a point z (a row of 256 numbers) and 256 centres c k (rows of 256 numbers), the squared distance to centre k is
  spelt  |z|² + |c k|² - 2·⟨z, c k⟩,  its weight is the Student-t kernel  1 / (1 + distance),  and the point's assignment
  to centre k is its weight over the sum of its 256 weights plus a small constant.  Each entry of the result depends on
  one row of the points and on all centres, so a block of rows of the result is the same function of that block of rows
  of the points.  The three float literals (2, 1 and the small constant) are kept as the values their words denote.
-/
import Idealize.ShloMosaic.PureOps.Ideal
import Idealize.ShloMosaic.Lib.ValueIdx

noncomputable section

open scoped BigOperators

namespace Cert.SoftAssign

open Idealize.ShloMosaic Idealize.ShloMosaic.ValueIdx

/-- The squared norm of a row: the sum of its entries' squares. -/
def sqNorm (v : Fin 256 → EReal) : EReal := ∑ d : Fin 256, v d * v d

/-- The inner product of two rows. -/
def dot (u v : Fin 256 → EReal) : EReal := ∑ d : Fin 256, u d * v d

/-- The weight of centre k for the point z: 1 / (1 + (|z|² + |c k|² - 2·⟨z, c k⟩)). -/
def weight (z : Fin 256 → EReal) (c : Fin 256 → Fin 256 → EReal) (k : Fin 256) : EReal :=
  Ideal.div (Ideal.ofBits .f32 0x3F800000#32)
    (Ideal.ofBits .f32 0x3F800000#32 + ((sqNorm z + sqNorm (c k)) - Ideal.ofBits .f32 0x40000000#32 * dot z (c k)))

/-- The assignment of the point z to centre k: its weight over (the sum of its weights + the small constant). -/
def assign (z : Fin 256 → EReal) (c : Fin 256 → Fin 256 → EReal) (k : Fin 256) : EReal :=
  Ideal.div (weight z c k) ((∑ k' : Fin 256, weight z c k') + Ideal.ofBits .f32 0x322BCC77#32)

/-- Row p of a matrix with 256 columns. -/
def row {A : Nat} (x : (⟨2, ![A, 256]⟩ : Shape).Idx → EReal) (p : Fin A) : Fin 256 → EReal := fun d => x (ix2 p d)

/-- The whole result: entry (n, k) is the assignment of point n to centre k. -/
def table {A : Nat} (z : (⟨2, ![A, 256]⟩ : Shape).Idx → EReal) (c : (⟨2, ![256, 256]⟩ : Shape).Idx → EReal) :
    (⟨2, ![A, 256]⟩ : Shape).Idx → EReal :=
  fun i => assign (row z (i 0)) (row c) (i 1)

theorem table_apply {A : Nat} (z : (⟨2, ![A, 256]⟩ : Shape).Idx → EReal) (c : (⟨2, ![256, 256]⟩ : Shape).Idx → EReal)
    (n : Fin A) (k : Fin 256) : table z c (ix2 n k) = assign (row z n) (row c) k := rfl

end Cert.SoftAssign

end
-- ==== Proof.LibLastAxis.lean ====
/-
  Reductions along the LAST axis, on the extended reals, for any sizes and ranks 2, 3 and 4.

  * Over a result index, the source index with coordinate k on the reduced (last) axis appends k.
  * The host's sum from an initial value is that value plus the finite sum along the axis; a kernel's lane sum from the
    zero word is the finite sum.
  * The host's maximum and a kernel's lane maximum are the fold of max, from the initial value, along the axis; from
    minus infinity, one more `max` with minus infinity changes nothing.
-/
import Idealize.ShloMosaic.Lib.ValueIdx
import Idealize.ShloMosaic.Lib.Pipeline.Value
import Idealize.ShloMosaic.PureOps.Ideal.Laws

noncomputable section

open scoped BigOperators

namespace Cert.Lib.LastAxis

open Idealize.ShloMosaic Idealize.ShloMosaic.ValueIdx

/-! ## The source index over a result index -/

theorem lift_last2 {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

theorem lift_last3 {a b c : ℕ} (h : (⟨3, ![a, b, c]⟩ : Shape).Reduces [(2 : Fin 3)] ⟨2, ![a, b]⟩) (p : Fin a) (q : Fin b)
    (k : Fin ((⟨3, ![a, b, c]⟩ : Shape).size 2)) : h.lift (ix2 p q) k = ix3 p q (k : Fin c) := by
  funext x; apply Fin.ext; rw [h.lift_val]
  match x with
  | ⟨0, _⟩ => rfl
  | ⟨1, _⟩ => rfl
  | ⟨2, _⟩ => rfl

theorem lift_last4 {a b c d : ℕ} (h : (⟨4, ![a, b, c, d]⟩ : Shape).Reduces [(3 : Fin 4)] ⟨3, ![a, b, c]⟩) (p : Fin a) (q : Fin b)
    (r : Fin c) (k : Fin ((⟨4, ![a, b, c, d]⟩ : Shape).size 3)) : h.lift (ix3 p q r) k = ix4 p q r (k : Fin d) := by
  funext x; apply Fin.ext; rw [h.lift_val]
  match x with
  | ⟨0, _⟩ => rfl
  | ⟨1, _⟩ => rfl
  | ⟨2, _⟩ => rfl
  | ⟨3, _⟩ => rfl

/-! ## Sums -/

/-- The host's sum of a rank-3 array along its last axis, at (p, q). -/
theorem hostSum_last3 {a b c : ℕ} {φ : FTy} (x : FVec Ideal ⟨3, ![a, b, c]⟩ φ) (v : (⟨0, ![]⟩ : Shape).Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < (⟨0, ![]⟩ : Shape).numel) (p : Fin a) (q : Fin b) :
    Host.reduceAdd x v h' hu (ix2 p q) = v ix0 + ∑ k : Fin c, x (ix3 p q k) := by
  show Ideal.hostReduceAdd h' x (v (Shape.Idx.first hu)) (ix2 p q) = _
  rw [Ideal.hostReduceAdd_single h' h, eq_ix0 (Shape.Idx.first hu)]
  exact congrArg (v ix0 + ·) (Finset.sum_congr rfl fun k _ => congrArg x (lift_last3 h p q k))

/-- The host's sum of a rank-4 array along its last axis, at (p, q, r). -/
theorem hostSum_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduceAdd x v h' hu (ix3 p q r) = v ix0 + ∑ k : Fin d, x (ix4 p q r k) := by
  show Ideal.hostReduceAdd h' x (v (Shape.Idx.first hu)) (ix3 p q r) = _
  rw [Ideal.hostReduceAdd_single h' h, eq_ix0 (Shape.Idx.first hu)]
  exact congrArg (v ix0 + ·) (Finset.sum_congr rfl fun k _ => congrArg x (lift_last4 h p q r k))

/-- A kernel's lane sum of a matrix along its last axis from the neutral word, at row p. -/
theorem laneSum_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-! ## Maxima -/

/-- Minus infinity is neutral for `max` on the extended reals. -/
theorem max_bot_left (y : EReal) : max (⊥ : EReal) y = y := max_eq_right bot_le

/-- The host's maximum of a rank-4 array along its last axis, at (p, q, r): the fold of max from the initial value. -/
theorem hostMax_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduce (FloatOps.maximumf (F := Ideal) (φ := φ)) x v h' hu (ix3 p q r)
      = (Finset.univ : Finset (Fin d)).fold max (v ix0) (fun k => x (ix4 p q r k)) := by
  rw [Host.reduce_eq_fold_single (FloatOps.maximumf (F := Ideal) (φ := φ)) x v h' h hu, eq_ix0 (Shape.Idx.first hu)]
  exact congrArg (fun f => Finset.fold max (v ix0) f (Finset.univ : Finset (Fin d))) (funext fun k => congrArg x (lift_last4 h p q r k))

/-- A kernel's lane maximum of a matrix along its last axis, at row p: the fold of max from the accumulator word's value. -/
theorem laneMax_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (fun f => Finset.fold max (FloatOps.ofBits φ acc) f (Finset.univ : Finset (Fin b))) (funext fun k => congrArg src (lift_last2 h p k)))

end Cert.Lib.LastAxis

end
-- ==== Proof.LibKeepdimsColumn.lean ====
/-
  The "keepdims" column forms of a row statistic, read at an index, for any sizes: a vector `[a]` cast to a column `[a,1]`
  and back, a column `[a,1]` broadcast along the rows to `[a,b]`, and the composite a kernel writes after a row reduction —
  the statistic cast to a column and broadcast back over its row: entry (p, q) is the statistic of row p.
-/
import Idealize.ShloMosaic.Lib.ValueIdx
import Idealize.ShloMosaic.Lib.Pipeline.Value

namespace Cert.Lib.KeepdimsColumn

open Idealize.ShloMosaic Idealize.ShloMosaic.ValueIdx

variable {α : Type}

/-- A vector as a column: entry (p, 0) is the vector's entry p. -/
theorem vecToCol_apply {a : Nat} (v : (⟨1, ![a]⟩ : Shape).Idx → α) (h : (⟨1, ![a]⟩ : Shape).ShapeCasts ⟨2, ![a, 1]⟩)
    (p : Fin a) (z : Fin 1) : shapeCast (⟨2, ![a, 1]⟩ : Shape) v h (ix2 p z) = v (ix1 p) := by
  refine shapeCast_apply v h (ix2 p z) (ix1 p) ?_
  rw [Shape.rowMajor_val_one, Shape.rowMajor_val_two]
  show p.val = p.val * 1 + z.val
  have := z.isLt; omega

/-- A column as a vector: entry p is the column's entry (p, 0). -/
theorem colToVec_apply {a : Nat} (v : (⟨2, ![a, 1]⟩ : Shape).Idx → α) (h : (⟨2, ![a, 1]⟩ : Shape).ShapeCasts ⟨1, ![a]⟩)
    (p : Fin a) : shapeCast (⟨1, ![a]⟩ : Shape) v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- A column broadcast along the rows: entry (p, q) is the column's entry (p, 0). -/
theorem colToMat_apply {a b : Nat} (v : (⟨2, ![a, 1]⟩ : Shape).Idx → α) (h : (⟨2, ![a, 1]⟩ : Shape).Broadcasts ⟨2, ![a, b]⟩)
    (p : Fin a) (q : Fin b) : broadcastTo (⟨2, ![a, b]⟩ : Shape) v h (ix2 p q) = v (ix2 p (0 : Fin 1)) := by
  refine broadcastTo_apply v h (ix2 p q) (ix2 p (0 : Fin 1)) fun ax => ?_
  match ax with
  | ⟨0, _⟩ =>
    show p.val = if a = 1 then 0 else p.val
    by_cases ha : a = 1
    · rw [if_pos ha]; have := p.isLt; omega
    · rw [if_neg ha]
  | ⟨1, _⟩ => show 0 = if (1 : Nat) = 1 then 0 else q.val; rw [if_pos rfl]

/-- A row statistic put back on its row: entry (p, q) is the statistic of row p. -/
theorem statToMat_apply {a b : Nat} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo (⟨2, ![a, b]⟩ : Shape) (shapeCast (⟨2, ![a, 1]⟩ : Shape) v hc) hb (ix2 p q) = v (ix1 p) :=
  (colToMat_apply _ hb p q).trans (vecToCol_apply v hc p 0)

end Cert.Lib.KeepdimsColumn
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.BlockValue.lean ====
/-
  What the kernel's body computes from one block of 4096 points and the 256 centres, entry by entry.

  Row sums of squares of the block and of the centres (lane sums), the block times the transposed centres (a matrix
  product into a zero accumulator), then entry by entry the weight 1 / (1 + (|z|² + |c|² - 2·⟨z, c⟩)), its row sum plus
  the small constant, and the quotient: entry (p, q) of the stored block is the assignment of the block's point p to
  centre q.  Rounding the operands of the product to a narrower format changes nothing on the extended reals.
-/
import proofs.«145183_j43688407335119_1_alg».proof.Proof.Gen.KernelIdeal.Skeleton
import proofs.«145183_j43688407335119_1_alg».proof.Proof.SoftAssign
import proofs.«145183_j43688407335119_1_alg».proof.Proof.LibLastAxis
import proofs.«145183_j43688407335119_1_alg».proof.Proof.LibKeepdimsColumn
import proofs.«145183_j43688407335119_1_alg».proof.Proof.LibPlainDot
import Idealize.ShloMosaic.Lib.ValueLayout

noncomputable section

open scoped BigOperators

namespace Cert.KernelIdeal.BlockValue

open Cert.KernelIdeal Cert.KernelIdeal.Gen Cert.SoftAssign Idealize.ShloMosaic Idealize.ShloMosaic.ValueIdx
/-- A row's sum of squares, cast to a column and broadcast back over the row: entry (p, q) is the squared norm of
    the block's row p. -/
theorem rowNorm_apply (x : FVec Ideal S4096x256 .f32) (p : Fin 4096) (q : Fin 256) :
    broadcastTo S4096x256 (shapeCast S4096x1 (multiReduction .add [1] S4096 (mulf x x) 0x00000000#32
      reduces_S4096x256_S4096 (.inl rfl) rfl) shapeCasts_S4096_S4096x1) broadcasts_S4096x1_S4096x256 (ix2 p q)
      = sqNorm (row x p) :=
  (Cert.Lib.KeepdimsColumn.statToMat_apply _ shapeCasts_S4096_S4096x1 broadcasts_S4096x1_S4096x256 p q).trans
    (Cert.Lib.LastAxis.laneSum_last2 (mulf x x) _ reduces_S4096x256_S4096 _ _ p)

/-- The centres' sums of squares, laid out as one row and broadcast over the block's rows: entry (p, q) is the
    squared norm of centre q. -/
theorem centreNorm_apply (y : FVec Ideal S256x256 .f32) (p : Fin 4096) (q : Fin 256) :
    broadcastTo S4096x256 (shapeCast S1x256 (multiReduction .add [1] S256 (mulf y y) 0x00000000#32
      reduces_S256x256_S256 (.inl rfl) rfl) shapeCasts_S256_S1x256) broadcasts_S1x256_S4096x256 (ix2 p q)
      = sqNorm (row y q) :=
  (broadcastTo_1b_ab_apply _ broadcasts_S1x256_S4096x256 p q).trans
    ((shapeCast_a_1a_apply _ shapeCasts_S256_S1x256 0 q).trans
      (Cert.Lib.LastAxis.laneSum_last2 (mulf y y) _ reduces_S256x256_S256 _ _ q))

/-- The block times the transposed centres: entry (p, q) is the inner product of the block's row p and centre q. -/
theorem cross_apply (x : FVec Ideal S4096x256 .f32) (y : FVec Ideal S256x256 .f32) (p : Fin 4096) (q : Fin 256) :
    matmul dot_S4096x256_S256x256_S4096x256_1_0_0_1_n_n none (truncf .bf16 x bitsLt_bf16_f32)
      (transpose S256x256 [1, 0] (truncf .bf16 y bitsLt_bf16_f32) transposes_S256x256_p1_0_S256x256)
      (constant S4096x256 .f32 0x00000000#32) (ix2 p q) = dot (row x p) (row y q) :=
  (Cert.Bridge.matmul_zero_plain dot_S4096x256_S256x256_S4096x256_1_0_0_1_n_n rfl rfl rfl rfl rfl rfl none _ _ p q).trans
    (Finset.sum_congr rfl fun k _ => congrArg (x (ix2 p k) * ·)
      (transpose_ix2_apply (truncf .bf16 y bitsLt_bf16_f32) transposes_S256x256_p1_0_S256x256 k q))

/-- A matrix over (its row sums cast to a column, plus a constant, broadcast back): entry (p, q) is the entry over
    (the sum of its row + the constant). -/
theorem normalise_apply (w : FVec Ideal S4096x256 .f32) (e : Ideal .f32) (p : Fin 4096) (q : Fin 256) :
    divf w (broadcastTo S4096x256 (addf (shapeCast S4096x1 (multiReduction .add [1] S4096 w 0x00000000#32
      reduces_S4096x256_S4096 (.inl rfl) rfl) shapeCasts_S4096_S4096x1) (broadcast S4096x1 e))
      broadcasts_S4096x1_S4096x256) (ix2 p q) = Ideal.div (w (ix2 p q)) ((∑ k : Fin 256, w (ix2 p k)) + e) :=
  congrArg (Ideal.div (w (ix2 p q)))
    ((Cert.Lib.KeepdimsColumn.colToMat_apply _ broadcasts_S4096x1_S4096x256 p q).trans
      (congrArg (· + e) ((Cert.Lib.KeepdimsColumn.vecToCol_apply _ shapeCasts_S4096_S4096x1 p 0).trans
        (Cert.Lib.LastAxis.laneSum_last2 w _ reduces_S4096x256_S4096 _ _ p))))

/-- THE STORED BLOCK, entry by entry: the assignment of the block's point p to centre q. -/
theorem pay_apply (x0 : Vec Ideal S4096x256 .f32) (x1 : Vec Ideal S256x256 .f32) (p : Fin 4096) (q : Fin 256) :
    k0_pay1 (F := Ideal) x0 x1 (ix2 p q) = assign (row x0 p) (row x1) q := by
  unfold k0_pay1
  refine (normalise_apply _ _ p q).trans ?_
  have hw : ∀ k : Fin 256, _ = weight (row x0 p) (row x1) k := fun k =>
    congrArg₂ (fun a b => Ideal.div (Ideal.ofBits .f32 0x3F800000#32)
        (Ideal.ofBits .f32 0x3F800000#32 + (a - Ideal.ofBits .f32 0x40000000#32 * b)))
      (congrArg₂ (· + ·) (rowNorm_apply x0 p k) (centreNorm_apply x1 p k)) (cross_apply x0 x1 p k)
  exact congrArg₂ Ideal.div (hw q) (congrArg (· + Ideal.ofBits .f32 0x322BCC77#32) (Finset.sum_congr rfl fun k _ => hw k))

end Cert.KernelIdeal.BlockValue

end
-- ==== Proof.KernelArray.lean ====
/-
  From blocks to the array: after the kernel's run the result array is the table of soft assignments.

  Grid point t fetches rows 4096·t … 4096·t + 4095 of the points and all 256 centres, and writes back the same rows of
  the result.  An entry of the result depends on its own row of the points only, so what point t writes back is block t
  of the whole table; the 32 blocks tile the 131072 rows (row r lies in block r / 4096), so the array ends at the table.
-/
import proofs.«145183_j43688407335119_1_alg».proof.Proof.Gen.KernelIdeal.Value
import proofs.«145183_j43688407335119_1_alg».proof.Proof.BlockValue

noncomputable section

namespace Cert.KernelIdeal.ArrayValue

open Cert.KernelIdeal Cert.KernelIdeal.Gen Cert.KernelIdeal.Value Cert.SoftAssign
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem off_zero : (![0, 0] : Fin 2 → Nat) = fun _ => 0 := funext fun a => by fin_cases a <;> rfl

/-- The three index maps over the 32 grid points: the points' block and the result's block are block t along the
    rows and block 0 along the columns; the centres' block is always block (0, 0). -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 31 :=
  (by decide +kernel : ∀ t : Fin grid0.N, _)

/-- Every one of the 32 row blocks is some grid point's. -/
theorem idx_onto : ∀ q0 : Fin 32, ∃ t : Fin cfg0.N, win0_2.index t = ![q0.val, 0] :=
  (by decide +kernel : ∀ q0 : Fin 32, ∃ t : Fin grid0.N, win0_2.index t = ![q0.val, 0])

/-- The points' block at grid point t, entry (p, d): the points' array at row (block index)·4096 + p, column d. -/
theorem points_blk (c : Dev nD) (t : Fin cfg0.N) (p : Fin 4096) (d : Fin 256) (n : Fin 131072)
    (hn : n.val = win0_2.index t (0 : Fin 2) * 4096 + p.val) :
    iblk m c 0 t (ix2 p d) = V m c main_arg0 (ix2 n d) := by
  obtain ⟨e0, e1, e2, e3, e4, e5⟩ := idx_facts t
  show V m c main_arg0 (((cfg0.win 0).blk t).view.emb (ix2 p d)) = V m c main_arg0 (ix2 n d)
  refine congrArg (V m c main_arg0) (funext fun a => Fin.ext ?_)
  match a with
  | ⟨0, _⟩ => show win0_0.index t (0 : Fin 2) * 4096 + 1 * p.val = n.val; omega
  | ⟨1, _⟩ => show win0_0.index t (1 : Fin 2) * 256 + 1 * d.val = d.val; omega

/-- The centres' block at any grid point is the centres' array. -/
theorem centres_blk (c : Dev nD) (t : Fin cfg0.N) (k : Fin 256) (d : Fin 256) :
    iblk m c 1 t (ix2 k d) = V m c main_arg1 (ix2 k d) := by
  obtain ⟨e0, e1, e2, e3, e4, e5⟩ := idx_facts t
  show V m c main_arg1 (((cfg0.win 1).blk t).view.emb (ix2 k d)) = V m c main_arg1 (ix2 k d)
  refine congrArg (V m c main_arg1) (funext fun a => Fin.ext ?_)
  match a with
  | ⟨0, _⟩ => show win0_1.index t (0 : Fin 2) * 256 + 1 * k.val = k.val; omega
  | ⟨1, _⟩ => show win0_1.index t (1 : Fin 2) * 256 + 1 * d.val = d.val; omega

/-- WHAT GRID POINT t WRITES BACK is block t of the table of soft assignments of the argument arrays. -/
theorem flushed_eq (c : Dev nD) (t : Fin cfg0.N) :
    (dats m 0 c).flushed 2 t
      = ((cfg0.win 2).blk t).view.read (Elt Ideal) (table (V m c main_arg0) (V m c main_arg1)) := by
  rw [flushed2]
  unfold out0_2
  rw [View.canon_unit_zero off_zero]
  simp only [View.ld_unit_zero (S := S4096x256) off_zero, View.ld_unit_zero (S := S256x256) off_zero]
  obtain ⟨e0, e1, e2, e3, e4, e5⟩ := idx_facts t
  funext j
  obtain ⟨p, q, rfl⟩ : ∃ (p : Fin 4096) (q : Fin 256), j = ix2 p q := ⟨j 0, j 1, eq_ix2 j⟩
  have hn : win0_2.index t (0 : Fin 2) * 4096 + p.val < 131072 := by have := p.isLt; omega
  have hi : ((cfg0.win 2).blk t).view.emb (ix2 p q)
      = ix2 (⟨win0_2.index t (0 : Fin 2) * 4096 + p.val, hn⟩ : Fin 131072) q := by
    funext a; apply Fin.ext
    match a with
    | ⟨0, _⟩ => show win0_2.index t (0 : Fin 2) * 4096 + 1 * p.val = win0_2.index t (0 : Fin 2) * 4096 + p.val; omega
    | ⟨1, _⟩ => show win0_2.index t (1 : Fin 2) * 256 + 1 * q.val = q.val; omega
  show k0_pay1 (F := Ideal) (iblk m c 0 t) (iblk m c 1 t) (ix2 p q)
    = table (V m c main_arg0) (V m c main_arg1) (((cfg0.win 2).blk t).view.emb (ix2 p q))
  rw [hi, table_apply]
  refine (BlockValue.pay_apply (iblk m c 0 t) (iblk m c 1 t) p q).trans ?_
  have hz : row (iblk m c 0 t) p = row (V m c main_arg0) (⟨win0_2.index t (0 : Fin 2) * 4096 + p.val, hn⟩ : Fin 131072) :=
    funext fun d => points_blk m c t p d _ rfl
  have hc : row (iblk m c 1 t) = row (V m c main_arg1) :=
    funext fun k => funext fun d => centres_blk m c t k d
  rw [hz, hc]

/-- An index of the array is in point t's block iff each coordinate is in the block's range on its axis. -/
theorem mem_blk (t : Fin cfg0.N) (i : S131072x256.Idx) :
    i ∈ ((cfg0.win 2).blk t).view.set ↔ ∀ a : Fin 2, win0_2.index t a * S4096x256.size a ≤ (i a).val
      ∧ (i a).val < win0_2.index t a * S4096x256.size a + S4096x256.size a := by
  show i ∈ ((View.whole main_v0).slice (win0_2.rect t)).set ↔ _
  rw [View.set_slice_whole, Rect.mem_set_unit]
  exact Iff.rfl

/-- The 32 blocks tile the array: row r lies in block r / 4096. -/
theorem cover (i : S131072x256.Idx) :
    ∃ t : Fin cfg0.N, (cfg0.win 2).flush t = true ∧ i ∈ ((cfg0.win 2).blk t).view.set := by
  have hi0 : (i 0).val < 131072 := (i 0).isLt
  have hi1 : (i 1).val < 256 := (i 1).isLt
  obtain ⟨t, ht⟩ := idx_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 256 ≤ (i 1).val ∧ (i 1).val < win0_2.index t (1 : Fin 2) * 256 + 256
    omega

/-- THE ARRAY after the run is the table of soft assignments of the argument arrays as launched. -/
theorem final (c : Dev nD) :
    (dats m 0 c).arrAt 2 cfg0.N
      = table (m ((c : Thread nD τ).loc main_arg0)) (m ((c : Thread nD τ).loc main_arg1)) :=
  (dats m 0 c).arrAt_eq_of_cover 2 (table (V m c main_arg0) (V m c main_arg1)) (fun t _ => flushed_eq m c t) cover

/-- The kernel's run: the result array ends at the table of soft assignments, the arguments unchanged. -/
theorem run : θ_run defs (onTc (τ := τ) (main (F := Ideal))) ⟨m, fun _ => 0, ρ⟩ fun r => ∀ c : Dev nD,
      r.2.mem ((c : Thread nD τ).loc main_v0)
        = table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.RefValue.lean ====
/-
  The reference, stage by stage, is the table of soft assignments.

  Its row sums of squares (of the points, kept as a column, and of the centres, kept as a row) are broadcast to the
  result's shape, its product of the points with the centres contracts the two second axes, and the rest is entry by
  entry: the weight, the weights' row sum plus the small constant, the quotient.  The host's sums start from the zero
  word, which adds nothing.
-/
import proofs.«145183_j43688407335119_1_alg».proof.Proof.Gen.ReferenceIdeal.Read
import proofs.«145183_j43688407335119_1_alg».proof.Proof.SoftAssign

noncomputable section

open scoped BigOperators

namespace Cert.ReferenceIdeal.RefValue

open Cert.ReferenceIdeal Cert.ReferenceIdeal.Gen Cert.ReferenceIdeal.Read Cert.SoftAssign
open Idealize.ShloMosaic Idealize.ShloMosaic.ValueIdx

variable (x0 : (⟨S131072x256, .f32⟩ : BufTy).Contents (Elt Ideal)) (x1 : (⟨S256x256, .f32⟩ : BufTy).Contents (Elt Ideal))

/-! ## The stages' index maps, composed, in coordinates -/

theorem idx_points (n : Fin 131072) (k d : Fin 256) :
    idx_main_v1 (idx_main_v2 (idx_main_v7 (ix2 n k))) d = ix2 n d :=
  funext fun a => Fin.ext (by match a with | ⟨0, _⟩ => rfl | ⟨1, _⟩ => rfl)

theorem idx_centres (n : Fin 131072) (k d : Fin 256) :
    idx_main_v4 (idx_main_v6 (idx_main_v8 (ix2 n k))) d = ix2 k d :=
  funext fun a => Fin.ext (by match a with | ⟨0, _⟩ => rfl | ⟨1, _⟩ => rfl)

theorem idx_left (n : Fin 131072) (k d : Fin 256) : lidx_main_v5 (ix2 n k) d = ix2 n d :=
  funext fun a => Fin.ext (by match a with | ⟨0, _⟩ => rfl | ⟨1, _⟩ => rfl)

theorem idx_right (n : Fin 131072) (k d : Fin 256) : ridx_main_v5 (ix2 n k) d = ix2 k d :=
  funext fun a => Fin.ext (by match a with | ⟨0, _⟩ => rfl | ⟨1, _⟩ => rfl)

theorem idx_weights (n : Fin 131072) (k k' : Fin 256) :
    idx_main_v17 (idx_main_v18 (idx_main_v21 (ix2 n k))) k' = ix2 n k' :=
  funext fun a => Fin.ext (by match a with | ⟨0, _⟩ => rfl | ⟨1, _⟩ => rfl)

/-! ## The stages at an entry -/

/-- The points' squared norms, broadcast: entry (n, k) is the squared norm of point n. -/
theorem pointNorm_apply (n : Fin 131072) (k : Fin 256) : val_main_v7 (F := Ideal) x0 (ix2 n k) = sqNorm (row x0 n) := by
  rw [val_main_v7_apply, val_main_v2_apply, val_main_v1_apply]
  simp only [val_main_cst_apply, val_main_v0_apply, idx_points, Ideal.ofBits_def, Ideal.ofBits_zero_f32, zero_add,
    Ideal.mulf_def]
  rfl

/-- The centres' squared norms, broadcast: entry (n, k) is the squared norm of centre k. -/
theorem centreNorm_apply (n : Fin 131072) (k : Fin 256) : val_main_v8 (F := Ideal) x1 (ix2 n k) = sqNorm (row x1 k) := by
  rw [val_main_v8_apply, val_main_v6_apply, val_main_v4_apply]
  simp only [val_main_cst_0_apply, val_main_v3_apply, idx_centres, Ideal.ofBits_def, Ideal.ofBits_zero_f32, zero_add,
    Ideal.mulf_def]
  rfl

/-- The product of the points with the centres: entry (n, k) is the inner product of point n and centre k. -/
theorem cross_apply (n : Fin 131072) (k : Fin 256) :
    val_main_v5 (F := Ideal) x0 x1 (ix2 n k) = dot (row x0 n) (row x1 k) := by
  rw [val_main_v5_apply]
  simp only [idx_left, idx_right]
  rfl

/-- The weights: entry (n, k) is the weight of centre k for point n. -/
theorem weight_apply (n : Fin 131072) (k : Fin 256) :
    val_main_v16 (F := Ideal) x0 x1 (ix2 n k) = weight (row x0 n) (row x1) k := by
  rw [val_main_v16_apply, val_main_v15_apply, val_main_cst_3_apply, val_main_v14_apply, val_main_v13_apply,
    val_main_cst_2_apply, val_main_v12_apply, val_main_v9_apply, val_main_v11_apply, val_main_v10_apply,
    val_main_cst_1_apply, pointNorm_apply, centreNorm_apply, cross_apply]
  rfl

/-- The weights' row sums plus the small constant, broadcast: entry (n, k) is point n's sum of weights plus it. -/
theorem total_apply (n : Fin 131072) (k : Fin 256) :
    val_main_v21 (F := Ideal) x0 x1 (ix2 n k)
      = (∑ k' : Fin 256, weight (row x0 n) (row x1) k') + Ideal.ofBits .f32 0x322BCC77#32 := by
  rw [val_main_v21_apply, val_main_v20_apply, val_main_v18_apply, val_main_v17_apply, val_main_v19_apply,
    val_main_cst_5_apply, val_main_cst_4_apply]
  simp only [idx_weights, weight_apply, Ideal.ofBits_def, Ideal.ofBits_zero_f32, zero_add, Ideal.addf_def]

/-- THE REFERENCE'S RESULT is the table of soft assignments of the points to the centres. -/
theorem result_eq : val_main_v22 (F := Ideal) x0 x1 = table x0 x1 := by
  funext i
  obtain ⟨n, k, rfl⟩ : ∃ (n : Fin 131072) (k : Fin 256), i = ix2 n k := ⟨i 0, i 1, eq_ix2 i⟩
  rw [val_main_v22_apply, weight_apply, total_apply]
  rfl

end Cert.ReferenceIdeal.RefValue

end
-- ==== Proof.lean ====
/-
  A clustering head's soft assignment of 131072 points to 256 centres: the kernel against its array-level reference.

  Both programs compute, for point n and centre k, the squared distance in the expanded form |z|² + |c|² - 2·⟨z, c⟩, the
  weight 1 / (1 + distance), and the weight over (the point's sum of weights + a small constant).  The kernel does it
  block by block, 4096 points at a time, with the inner products as one matrix product of the block with the transposed
  centres; the reference does it on whole arrays with one contraction.  On the extended reals a change of float format
  is the identity and a matrix product is its sum of products, so both results are the same table, entry by entry, with
  no use of the inputs' finiteness: the two sides apply the same operations in the same order to the same sums.

  The kernel's result array after its run is that table (ArrayValue.run, from the blocks each grid point writes back);
  the reference's result is that table (RefValue.result_eq, stage by stage over its run); the three frames are the
  runs with the results dropped; the idealized kernel differs from the kernel by no rewrite.
-/
import proofs.«145183_j43688407335119_1_alg».proof.Defs
import proofs.«145183_j43688407335119_1_alg».proof.Proof.Gen.Kernel
import proofs.«145183_j43688407335119_1_alg».proof.Proof.Gen.Kernel.Skeleton
import proofs.«145183_j43688407335119_1_alg».proof.Proof.Gen.Kernel.Launch
import proofs.«145183_j43688407335119_1_alg».proof.Proof.Gen.Kernel.Points
import proofs.«145183_j43688407335119_1_alg».proof.Proof.Gen.Kernel.Frame
import proofs.«145183_j43688407335119_1_alg».proof.Proof.Gen.KernelIdeal
import proofs.«145183_j43688407335119_1_alg».proof.Proof.Gen.KernelIdeal.Skeleton
import proofs.«145183_j43688407335119_1_alg».proof.Proof.Gen.KernelIdeal.Launch
import proofs.«145183_j43688407335119_1_alg».proof.Proof.Gen.KernelIdeal.Points
import proofs.«145183_j43688407335119_1_alg».proof.Proof.Gen.KernelIdeal.Frame
import proofs.«145183_j43688407335119_1_alg».proof.Proof.Gen.ReferenceIdeal
import proofs.«145183_j43688407335119_1_alg».proof.Proof.Gen.Pre_finite_inputs
import proofs.«145183_j43688407335119_1_alg».proof.Proof.Gen.KernelIdeal.Value
import proofs.«145183_j43688407335119_1_alg».proof.Proof.Gen.ReferenceIdeal.Run
import proofs.«145183_j43688407335119_1_alg».proof.Proof.Gen.ReferenceIdeal.Read
import proofs.«145183_j43688407335119_1_alg».proof.Proof.KernelArray
import proofs.«145183_j43688407335119_1_alg».proof.Proof.RefValue
import Idealize.ShloMosaic.Adequacy
import Idealize.ShloMosaic.Init

noncomputable section

namespace Cert.Proof

open Idealize.ShloMosaic Idealize.SL.Sem

/-- The kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel on the extended reals is the kernel's own text: nothing was rewritten. -/
theorem preserves : Cert.preserves_Kernel_KernelIdeal := trivial

/-- From memories that agree on the points and the centres, both programs end at the table of soft assignments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
